-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S16x128 : Shape := ⟨2, ![16, 128]⟩
abbrev S32768x128 : Shape := ⟨2, ![32768, 128]⟩
abbrev S8x128 : Shape := ⟨2, ![8, 128]⟩
abbrev S1x32768x128 : Shape := ⟨3, ![1, 32768, 128]⟩
abbrev S1 : Shape := ⟨1, ![1]⟩
abbrev S1x1x1 : Shape := ⟨3, ![1, 1, 1]⟩
abbrev S2x8x128 : Shape := ⟨3, ![2, 8, 128]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S16x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S32768x128, .f32⟩
  | .local _ .vmem, ⟨1, _⟩ => ⟨S32768x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_call0_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32768x128_S32768x128_0_0 : ∀ a, (![0, 0] : Fin 2 → Nat) a + S32768x128.size a ≤ S32768x128.size a
  h_S32768x128 : 0 < S32768x128.numel
  shapeCasts_S32768x128_S32768x128 : S32768x128.ShapeCasts S32768x128
  shapeCasts_S32768x128_S1x32768x128 : S32768x128.ShapeCasts S1x32768x128
  reduces_S1x32768x128_S1 : S1x32768x128.Reduces [1, 2] S1
  shapeCasts_S1_S1x1x1 : S1.ShapeCasts S1x1x1
  inpos_S1x1x1_p0_0_0 : ∀ a, (![0, 0, 0] : Fin 3 → Nat) a < S1x1x1.size a
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S262144x128.size a
  hwx0_0 : ∀ i : grid0.Coords, EltTy.bits .f32 = 32 ∨ (Rect.block (s := S262144x128) S32768x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_v0) S32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call1_cst : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Carried.lean ====
/-
  What the body leaves at each grid point, at any float instance: both the carried accumulator and the output
  block end at the accumulating store's value — over the reset's zero at a first point of a core's run, over what the
  point before left otherwise.
-/
import proofs.«141449_j67001489818157_2_alg».proof.Proof.Gen.KernelIdeal.Frame
import Idealize.ShloMosaic.Lib.Pipeline.Value
import Idealize.ShloMosaic.Lib.Tactic

noncomputable section

namespace Cert.KernelIdeal.Carried

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A load of the whole buffer after stores the last of which wrote the whole buffer reads that store's value. -/
theorem readCov_last_whole {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- A later point: the accumulator ends at the accumulating store over what the point before left. -/
theorem acc_later (c : Dev nD) (i : grid0.Coords) (a2 : Memref sig .tc .vmem S32768x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S32768x128 .f32) (xs : Vec F S8x128 .f32) :
    sout0_B_0 c i a2 h2 a3 h3 a4 h4 hc x xs = k0_pay2 x xs := by
  unfold sout0_B_0
  rw [View.read_writes_eq_canon _ _ _ (scover0_B_0 c i a2 h2 a3 h3 a4 h4 hc x xs)]
  unfold kernelRun0_B
  dsimp only
  sl_unfold_words
  rw [View.canon_unit_zero hz]
  simp only [View.readAt_eq_ld, h2.read_unread, h4.read_unread, View.ld_unit_zero (S := S32768x128) hz,
    View.ld_unit_zero (S := S8x128) hz]

/-- A later point: the output block ends at the same value. -/
theorem out_later (c : Dev nD) (i : grid0.Coords) (a2 : Memref sig .tc .vmem S32768x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S32768x128 .f32) (xs : Vec F S8x128 .f32) :
    out0_B_1 c i a2 h2 a3 h3 a4 h4 hc x xs = k0_pay2 x xs := by
  unfold out0_B_1
  rw [View.read_writes_eq_canon _ _ _ (cover0_B_1 c i a2 h2 a3 h3 a4 h4 hc x xs)]
  unfold kernelRun0_B
  dsimp only
  sl_unfold_words
  rw [View.canon_unit_zero (S := S8x128) hz, View.readCov_unit_zero (S := S8x128) _ hz]
  simp only [View.readAt_eq_ld, h2.read_unread, h4.read_unread, View.ld_unit_zero (S := S32768x128) hz,
    View.ld_unit_zero (S := S8x128) hz]

/-- A first point: the accumulator ends at the accumulating store over the reset's value. -/
theorem acc_first (c : Dev nD) (i : grid0.Coords) (a2 : Memref sig .tc .vmem S32768x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S32768x128 .f32) :
    sout0_A_0 c i a2 h2 a3 h3 a4 h4 hc x = k0_pay2 x (k0_pay1 (F := F)) := by
  unfold sout0_A_0
  rw [View.read_writes_eq_canon _ _ _ (scover0_A_0 c i a2 h2 a3 h3 a4 h4 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S32768x128) hz]

/-- A first point: the output block ends at the same value. -/
theorem out_first (c : Dev nD) (i : grid0.Coords) (a2 : Memref sig .tc .vmem S32768x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S32768x128 .f32) :
    out0_A_1 c i a2 h2 a3 h3 a4 h4 hc x = k0_pay2 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_unit_zero (S := S8x128) hz, readCov_last_whole (S := S8x128) _ hz, View.readCov_unit_zero (S := S8x128) _ hz]
  simp only [View.readAt_eq_ld, h2.read_unread, View.ld_unit_zero (S := S32768x128) hz]

end Cert.KernelIdeal.Carried

end
-- ==== Proof.LibSumReshape.lean ====
/-
  Sums over index sets of arrays, re-indexed.

  A reshape keeps the elements and their row-major order, so it is a bijection of index sets and a sum over the
  reshaped array is the sum over the original (`sum_reshapeEquiv`, `sum_shapeCast`). A rank-1 index set is its one
  coordinate range (`sum_idx1`). A rank-2 array of `m * n` rows cut into `m` consecutive blocks of `n` rows: the sum
  over the array is the sum over the blocks of each block's sum, the element `(r, l)` of block `t` being the
  array's `(n * t + r, l)` (`blockIdx`, `sum_rowBlocks`).
-/
import Idealize.ShloMosaic.Lib.ValueIdx

noncomputable section

open scoped BigOperators

namespace Idealize.ShloMosaic.SumReshape

open Idealize.ShloMosaic Idealize.ShloMosaic.ValueIdx

variable {M : Type*} [AddCommMonoid M]

/-- A sum read through the reshape bijection is the sum itself. -/
theorem sum_reshapeEquiv {s t : Shape} (h : t.numel = s.numel) (f : s.Idx → M) :
    ∑ j : t.Idx, f (Shape.reshapeEquiv h j) = ∑ i : s.Idx, f i :=
  Equiv.sum_comp (Shape.reshapeEquiv h) f

/-- The sum of the elements of a shape cast is the sum of the elements. -/
theorem sum_shapeCast_self {N : Type} [AddCommMonoid N] {s t : Shape} (x : s.Idx → N) (h : s.ShapeCasts t) :
    ∑ j : t.Idx, shapeCast t x h j = ∑ i : s.Idx, x i :=
  sum_reshapeEquiv h x

/-- The sum of a function of the elements of a shape cast is the sum of that function of the elements. -/
theorem sum_shapeCast {s t : Shape} {α : Type} (x : s.Idx → α) (h : s.ShapeCasts t) (g : α → M) :
    ∑ j : t.Idx, g (shapeCast t x h j) = ∑ i : s.Idx, g (x i) :=
  sum_reshapeEquiv h fun i => g (x i)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- Row `r` of block `t`, of `n` rows each, is row `n * t + r`. -/
def blockRow {m n : Nat} (t : Fin m) (r : Fin n) : Fin (m * n) :=
  ⟨n * t.val + r.val, by
    have h1 := t.isLt; have h2 := r.isLt
    calc n * t.val + r.val < n * t.val + n := by omega
      _ = n * (t.val + 1) := by ring
      _ ≤ n * m := Nat.mul_le_mul_left _ h1
      _ = m * n := Nat.mul_comm _ _⟩

theorem blockRow_val {m n : Nat} (t : Fin m) (r : Fin n) : (blockRow t r).val = n * t.val + r.val := rfl

/-- The rows of `m` consecutive blocks of `n` rows are all the `m * n` rows, each once. -/
theorem sum_blockRow {m n : Nat} (f : Fin (m * n) → M) : ∑ a, f a = ∑ t : Fin m, ∑ r : Fin n, f (blockRow t r) := by
  rw [← Fintype.sum_prod_type', ← Equiv.sum_comp finProdFinEquiv f]
  refine Finset.sum_congr rfl fun p _ => congrArg f (Fin.ext ?_)
  show p.2.val + n * p.1.val = n * p.1.val + p.2.val
  omega

/-- Entry `y` of block `t`, in the array of `N = m * n` rows: row `n * t + y₀`, column `y₁`. -/
def blockIdx {N k : Nat} (m n : Nat) (hN : N = m * n) (t : Fin m) (y : (⟨2, ![n, k]⟩ : Shape).Idx) :
    (⟨2, ![N, k]⟩ : Shape).Idx :=
  ix2 ⟨n * t.val + (y 0).val, by subst hN; exact (blockRow t ⟨(y 0).val, idx2_lt0 y⟩).isLt⟩ ⟨(y 1).val, idx2_lt1 y⟩

theorem blockIdx_row {N k : Nat} (m n : Nat) (hN : N = m * n) (t : Fin m) (y : (⟨2, ![n, k]⟩ : Shape).Idx) :
    (blockIdx m n hN t y 0).val = n * t.val + (y 0).val := rfl

theorem blockIdx_col {N k : Nat} (m n : Nat) (hN : N = m * n) (t : Fin m) (y : (⟨2, ![n, k]⟩ : Shape).Idx) :
    (blockIdx m n hN t y 1).val = (y 1).val := rfl

/-- A sum over an array of `N = m * n` rows is the sum over its `m` row blocks of the blocks' sums. -/
theorem sum_rowBlocks {N k : Nat} (m n : Nat) (hN : N = m * n) (f : (⟨2, ![N, k]⟩ : Shape).Idx → M) :
    ∑ i, f i = ∑ t : Fin m, ∑ y : (⟨2, ![n, k]⟩ : Shape).Idx, f (blockIdx m n hN t y) := by
  subst hN
  rw [sum_idx2, sum_blockRow]
  refine Finset.sum_congr rfl fun t _ => ?_
  rw [sum_idx2]
  rfl

end Idealize.ShloMosaic.SumReshape

end
-- ==== Proof.BodySum.lean ====
/-
  The kernel body's arithmetic at the ideal instance. The value it stores into the carried accumulator is, at every
  entry, the accumulator's entry plus the sum over the whole input block of its rectified entries; the value the
  reset stores is zero everywhere.
-/
import proofs.«141449_j67001489818157_2_alg».proof.Proof.Gen.KernelIdeal.Skeleton
import proofs.«141449_j67001489818157_2_alg».proof.Proof.LibSumReshape
import Idealize.ShloMosaic.PureOps.Ideal.Laws
import Idealize.ShloMosaic.Lib.Pipeline.Value
import Idealize.ShloMosaic.Lib.ValueIdx

noncomputable section

open scoped BigOperators

namespace Cert.KernelIdeal.BodySum

open Cert.KernelIdeal Cert.KernelIdeal.Gen Idealize.ShloMosaic Idealize.ShloMosaic.ValueIdx
open Idealize.ShloMosaic.SumReshape

/-- The sum of the rectified entries of one input block. -/
def blockSum (x : Vec Ideal S32768x128 .f32) : EReal := ∑ y : S32768x128.Idx, max (x y) 0

/-- A shape cast read at an index is the operand at the index of the same row-major position. -/
theorem shapeCast_at {s t : Shape} {α : Type} (x : s.Idx → α) (h : s.ShapeCasts t) (j : t.Idx) :
    shapeCast t x h j = x (Shape.reshapeEquiv h j) := rfl

/-- The reset stores zero at every entry. -/
theorem reset_apply (j : S8x128.Idx) : k0_pay1 (F := Ideal) j = 0 := by
  unfold k0_pay1
  rw [shapeCast_self]
  exact Ideal.ofBits_zero_f32

/-- The accumulating store: the accumulator's entry plus the block's rectified sum. -/
theorem accumulate_apply (x : Vec Ideal S32768x128 .f32) (a : Vec Ideal S8x128 .f32) (j : S8x128.Idx) :
    k0_pay2 (F := Ideal) x a j = a j + blockSum x := by
  unfold k0_pay2
  rw [shapeCast_self, shapeCast_self]
  have hr : (maximumf x (broadcast S32768x128 (FloatOps.ofBits (F := Ideal) FTy.f32 0#32)) : FVec Ideal S32768x128 .f32)
      = fun y => max (x y) 0 := by
    funext y
    show max (x y) (Ideal.ofBits .f32 0x00000000#32) = _
    rw [Ideal.ofBits_zero_f32]
  rw [hr]
  rw [addf_apply, broadcast_apply]
  refine congrArg (a j + ·) ?_
  unfold extractAt
  rw [shapeCast_at]
  refine (Ideal.multiReduction_add_total (φ := .f32) _ (0x00000000#32 : BitVec 32) reduces_S1x32768x128_S1
    (fun b => ?_) (.inl rfl) rfl _).trans ?_
  · match b with
    | ⟨0, _⟩ => rfl
  · unfold blockSum
    exact sum_shapeCast_self (fun y => max (x y) 0) shapeCasts_S32768x128_S1x32768x128

end Cert.KernelIdeal.BodySum

end
-- ==== Proof.Running.lean ====
/-
  The running total at the ideal instance. A core's run is four consecutive grid points; the accumulator is reset at
  the run's first point and each point adds its block's rectified sum, so after the point at offset `j` of its run
  every entry of the accumulator — and of the output block, which is a copy of it — is the sum of the rectified sums
  of the run's blocks up to that point.
-/
import proofs.«141449_j67001489818157_2_alg».proof.Proof.Carried
import proofs.«141449_j67001489818157_2_alg».proof.Proof.BodySum

noncomputable section

open scoped BigOperators

namespace Cert.KernelIdeal.Running

open Cert.KernelIdeal Cert.KernelIdeal.Gen Idealize.ShloMosaic Idealize.ShloMosaic.TcCoe Idealize.SL.Sem
open Cert.KernelIdeal.Carried Cert.KernelIdeal.BodySum

variable (m : (ℓ : Loc nD τ sig) → Buf (Elt Ideal) ℓ)

/-- At every point the output block holds what the accumulator holds (any float instance). -/
theorem out_eq_acc {F : FTy → Type} [FloatOps F] (m : (ℓ : Loc nD τ sig) → Buf (Elt F) ℓ) (c : Dev nD)
    (t : Fin cfg0.N) : (outsAt0 m c t.val t.isLt).1 = (outsAt0 m c t.val t.isLt).2 := by
  by_cases h0 : t.val % 4 = 0
  · rw [outsAt0_A m c t h0]
    dsimp only
    exact (out_first (F := F) ..).trans (acc_first (F := F) ..).symm
  · rw [outsAt0_B m c t h0]
    dsimp only
    exact (out_later (F := F) ..).trans (acc_later (F := F) ..).symm

/-- The rectified sum of the input block of point `n` (zero past the grid, where it is never used). -/
def addend (c : Dev nD) (n : ℕ) : EReal :=
  if h : n < cfg0.N then blockSum (iblk m c 0 ⟨n, h⟩) else 0

theorem addend_of_lt (c : Dev nD) (n : ℕ) (h : n < cfg0.N) : addend m c n = blockSum (iblk m c 0 ⟨n, h⟩) :=
  dif_pos h

/-- After point `t` every entry of the accumulator is the sum of the addends of its run's points up to `t`. -/
theorem acc_apply (c : Dev nD) (t : ℕ) (ht : t < cfg0.N) (j : S8x128.Idx) :
    (outsAt0 m c t ht).2 j = ∑ s ∈ Finset.range (t % 4 + 1), addend m c (4 * (t / 4) + s) := by
  have hlt : 4 * (t / 4) + t % 4 < cfg0.N := by rw [Nat.div_add_mod]; exact ht
  have e := Pipeline.eq_accAt_of_mod (N := cfg0.N) (fun n h => (outsAt0 m c n h).2) 4
    (fun n h => k0_pay2 (F := Ideal) (iblk m c 0 ⟨n, h⟩) (k0_pay1 (F := Ideal)))
    (fun n h acc => k0_pay2 (F := Ideal) (iblk m c 0 ⟨n, h⟩) acc)
    (fun n h h0 => by
      show (outsAt0 m c (⟨n, h⟩ : Fin cfg0.N).val (⟨n, h⟩ : Fin cfg0.N).isLt).2 = _
      rw [outsAt0_A m c ⟨n, h⟩ h0]
      dsimp only
      exact acc_first (F := Ideal) ..)
    (fun n h h0 => by
      show (outsAt0 m c (⟨n + 1, h⟩ : Fin cfg0.N).val (⟨n + 1, h⟩ : Fin cfg0.N).isLt).2 = _
      rw [outsAt0_B m c ⟨n + 1, h⟩ h0]
      dsimp only
      exact acc_later (F := Ideal) ..)
    (by decide) t ht hlt
  have e' := congrFun e j
  refine e'.trans ?_
  refine (Pipeline.accAt_add_apply (N := cfg0.N) _ _ (fun _ => (0 : EReal)) (fun n _ => addend m c n) (4 * (t / 4)) 3
    (fun h i => ?_) (fun n h acc i _ _ => ?_) (t % 4) (by omega) hlt j).trans (zero_add _)
  · rw [accumulate_apply, reset_apply, addend_of_lt m c _ h]
  · rw [accumulate_apply, addend_of_lt m c _ h]

/-- At a run's last point the output block's every entry is the sum of the run's four addends. -/
theorem out_last_apply (c : Dev nD) (t : Fin cfg0.N) (h3 : t.val % 4 = 3) (j : S8x128.Idx) :
    (outsAt0 m c t.val t.isLt).1 j = ∑ s ∈ Finset.range 4, addend m c (4 * (t.val / 4) + s) := by
  rw [out_eq_acc m c t, acc_apply m c t.val t.isLt j, h3]

end Cert.KernelIdeal.Running

end
-- ==== Proof.OutArray.lean ====
/-
  The output array after the region, at the ideal instance. The output's block moves with the core, and a block is
  written back after the last point of that core's run, holding at every entry the run's total: the sum, over the
  run's four input blocks, of each block's rectified sum. So rows 8q … 8q + 7 of the output array end at core q's
  total. The input block of point t is rows 32768 t … of the argument laid out in rows of 128, so the two cores'
  totals together are the sum of every rectified entry of the argument.
-/
import proofs.«141449_j67001489818157_2_alg».proof.Proof.Running
import Idealize.ShloMosaic.Lib.StableHlo.Run

noncomputable section

open scoped BigOperators

namespace Cert.KernelIdeal.OutArray

open Cert.KernelIdeal Cert.KernelIdeal.Gen Idealize.ShloMosaic Idealize.ShloMosaic.TcCoe Idealize.SL.Sem
open Idealize.ShloMosaic.ValueIdx Idealize.ShloMosaic.SumReshape
open Cert.KernelIdeal.Running Cert.KernelIdeal.BodySum

variable (m : (ℓ : Loc nD τ sig) → Buf (Elt Ideal) ℓ)

/-- The printed index maps over the grid: the input's block row is the point itself, the output's the point's core. -/
theorem idx_in : ∀ t : Fin cfg0.N, win0_0.index t (0 : Fin 2) = t.val ∧ win0_0.index t (1 : Fin 2) = 0 :=
  (by decide +kernel : ∀ t : Fin grid0.N, _)
theorem idx_out : ∀ t : Fin cfg0.N, win0_1.index t (0 : Fin 2) = t.val / 4 ∧ win0_1.index t (1 : Fin 2) = 0 :=
  (by decide +kernel : ∀ t : Fin grid0.N, _)

/-- What the output array ends holding: at row r, the total of core r / 8. -/
def coreTotals (c : Dev nD) : S16x128.Idx → EReal :=
  fun i => ∑ s ∈ Finset.range 4, addend m c (4 * ((i 0).val / 8) + s)

/-- What a run's last point writes back is its block of `coreTotals`. -/
theorem flushed_eq (c : Dev nD) (t : Fin cfg0.N) (hf : (cfg0.win 1).flush t = true) :
    (dats m 0 c).flushed 1 t = ((cfg0.win 1).blk t).view.read (Elt Ideal) (coreTotals m c) := by
  have h3 : t.val % 4 = 3 := (flush0_1 t).mp hf
  show (cfg0.win 1).cut (grid0.coords t) ((dats m 0 c).after 1 t) = _
  rw [after0_1]
  funext y
  show (outsAt0 m c t.val t.isLt).1 y = coreTotals m c (((cfg0.win 1).blk t).view.emb y)
  refine (out_last_apply m c t h3 y).trans ?_
  unfold coreTotals
  have e : ((((cfg0.win 1).blk t).view.emb y) 0).val / 8 = t.val / 4 := by
    show (win0_1.index t (0 : Fin 2) * 8 + 1 * (y 0).val) / 8 = t.val / 4
    have hy : (y 0).val < 8 := (y 0).isLt
    rw [(idx_out t).1]
    omega
  rw [e]

/-- An index of the output array is in point `t`'s block iff each coordinate is in the block's range. -/
theorem mem_blk (t : Fin cfg0.N) (i : S16x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v1).slice (win0_1.rect t)).set ↔ _
  rw [View.set_slice_whole, Rect.mem_set_unit]
  exact Iff.rfl

/-- Every row of the output array is in the block its core's last point writes back. -/
theorem covered (i : S16x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hN : cfg0.N = 8 := N_0
  refine ⟨⟨4 * ((i 0).val / 8) + 3, by omega⟩, (flush0_1 _).mpr (by show (4 * ((i 0).val / 8) + 3) % 4 = 3; omega), ?_⟩
  rw [mem_blk]
  intro a
  obtain ⟨e0, e1⟩ := idx_out ⟨4 * ((i 0).val / 8) + 3, by omega⟩
  match a with
  | ⟨0, _⟩ =>
    show win0_1.index _ (0 : Fin 2) * 8 ≤ (i 0).val ∧ (i 0).val < win0_1.index _ (0 : Fin 2) * 8 + 8
    rw [e0]
    show (4 * ((i 0).val / 8) + 3) / 4 * 8 ≤ (i 0).val ∧ (i 0).val < (4 * ((i 0).val / 8) + 3) / 4 * 8 + 8
    omega
  | ⟨1, _⟩ =>
    show win0_1.index _ (1 : Fin 2) * 128 ≤ (i 1).val ∧ (i 1).val < win0_1.index _ (1 : Fin 2) * 128 + 128
    rw [e1]
    omega

/-- The output array after the region. -/
theorem final (c : Dev nD) : (dats m 0 c).arrAt 1 cfg0.N = coreTotals m c :=
  (dats m 0 c).arrAt_eq_of_cover 1 (coreTotals m c) (flushed_eq m c) covered

/-- The argument array as the device holds it at launch, and the array the region reads. -/
def arg (c : Dev nD) : S33554432.Idx → EReal := m ((c : Thread nD τ).loc main_arg0)
def rows (c : Dev nD) : S262144x128.Idx → EReal := V m c main_v0

/-- The array the region reads is the argument laid out in rows of 128. -/
theorem entry_rows (c : Dev nD) :
    rows m c = shapeCast S262144x128 (arg m c) shapeCasts_S33554432_S262144x128 := by
  show StableHlo.after hostOps0 (fun b => m (c, b)) (Proc.devRef .tc main_v0) = _
  after_results
  rfl

/-- The input block of point `t` at an entry is the entry of the array at the block's offset. -/
theorem iblk_apply (c : Dev nD) (t : Fin cfg0.N) (y : S32768x128.Idx) (k : S262144x128.Idx)
    (hk0 : (k 0).val = 32768 * t.val + (y 0).val) (hk1 : (k 1).val = (y 1).val) :
    (iblk m c 0 t : Vec Ideal S32768x128 .f32) y = rows m c k := by
  unfold iblk
  rw [View.read_apply]
  show V m c main_v0 _ = V m c main_v0 _
  refine congrArg _ (funext fun a => Fin.ext ?_)
  obtain ⟨e0, e1⟩ := idx_in t
  match a with
  | ⟨0, _⟩ => show win0_0.index t (0 : Fin 2) * 32768 + 1 * (y 0).val = (k 0).val; rw [e0, hk0]; omega
  | ⟨1, _⟩ => show win0_0.index t (1 : Fin 2) * 128 + 1 * (y 1).val = (k 1).val; rw [e1, hk1]; omega

/-- A point's addend is the rectified sum of its 32768 rows of the array. -/
theorem addend_eq (c : Dev nD) (t : Fin 8) :
    addend m c t.val = ∑ y : S32768x128.Idx, max (rows m c (blockIdx 8 32768 (by norm_num) t y)) 0 := by
  have hN : cfg0.N = 8 := N_0
  have ht : t.val < cfg0.N := by have := t.isLt; omega
  rw [addend_of_lt m c t.val ht]
  unfold blockSum
  refine Finset.sum_congr rfl fun y _ => ?_
  rw [iblk_apply m c ⟨t.val, ht⟩ y (blockIdx 8 32768 (by norm_num) t y) rfl rfl]

/-- The addends of all eight points together are the sum of every rectified entry of the argument. -/
theorem sum_addends (c : Dev nD) :
    ∑ t : Fin 8, addend m c t.val = ∑ i : S33554432.Idx, max (arg m c i) 0 := by
  have h1 : ∑ t : Fin 8, addend m c t.val = ∑ i : S262144x128.Idx, max (rows m c i) 0 := by
    rw [sum_rowBlocks 8 32768 (by norm_num) (fun i : S262144x128.Idx => max (rows m c i) 0)]
    exact Finset.sum_congr rfl fun t _ => addend_eq m c t
  rw [h1, entry_rows]
  exact sum_shapeCast (arg m c) shapeCasts_S33554432_S262144x128 (fun v => max v 0)

end Cert.KernelIdeal.OutArray

end
-- ==== Proof.Spec.lean ====
/-
  The value both programs compute, on the extended reals: the entries of the argument rectified (the larger of the
  entry and zero), all of them summed, and the sum rectified again.
-/
import Idealize.ShloMosaic.PureOps.Ideal

noncomputable section

open scoped BigOperators

namespace Cert.Spec

open Idealize.ShloMosaic

/-- The rectified total of a vector of 2^25 extended reals, as a scalar array. -/
def rectifiedTotal (x : (⟨1, ![33554432]⟩ : Shape).Idx → EReal) : (⟨0, ![]⟩ : Shape).Idx → EReal :=
  fun _ => max (∑ i, max (x i) 0) 0

end Cert.Spec

end
-- ==== Proof.KernelValue.lean ====
/-
  The kernel program's result at the ideal instance. After the region the host keeps entry (q, 0, 0) of the output
  array read as 2 × 8 × 128 — row 8q, column 0: core q's total —, adds the two from zero and rectifies the sum. The two
  cores' totals are the rectified sums of all eight input blocks, which together are every rectified entry of the
  argument: the program's result is the rectified total of its argument.
-/
import proofs.«141449_j67001489818157_2_alg».proof.Proof.OutArray
import proofs.«141449_j67001489818157_2_alg».proof.Proof.Spec

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.SumReshape
open Cert.KernelIdeal.Running Cert.KernelIdeal.BodySum Cert.KernelIdeal.OutArray

/-- The per-core entries the host keeps of the output array. -/
def partials (A : S16x128.Idx → EReal) : S2.Idx → EReal :=
  shapeCast S2 (extractStridedSlice S2x1x1 ![0, 0, 0] (shapeCast S2x8x128 A shapeCasts_S16x128_S2x8x128)
    slices_S2x8x128_S2x1x1_0_0_0) shapeCasts_S2x1x1_S2

/-- The host operations after the region, as one function of the output array. -/
def tail (A : S16x128.Idx → EReal) : S_.Idx → EReal :=
  maximumf (F := Ideal) (Host.reduceAdd (F := Ideal) (partials A) (constant (F := Ideal) S_ .f32 0x00000000#32)
    reducesTo_S2_S_d0 h_S_) (constant (F := Ideal) S_ .f32 0x00000000#32)

/-- Entry q of the kept vector is row 8q, column 0 of the output array. -/
theorem partials_apply (A : S16x128.Idx → EReal) (q : Fin 2) :
    partials A (ix1 q) = A (ix2 (⟨8 * q.val, by omega⟩ : Fin 16) (⟨0, by norm_num⟩ : Fin 128)) := by
  unfold partials
  refine (shapeCast_apply _ _ (ix1 q) (ix3 q (⟨0, Nat.one_pos⟩ : Fin 1) (⟨0, Nat.one_pos⟩ : Fin 1)) ?_).trans ?_
  · rw [Shape.rowMajor_val_three, Shape.rowMajor_val_one]
    show (q.val * 1 + 0) * 1 + 0 = q.val
    omega
  refine (extractStridedSlice_apply _ _ _ _ (ix3 q (⟨0, by norm_num⟩ : Fin 8) (⟨0, by norm_num⟩ : Fin 128))
    (fun a => ?_)).trans ?_
  · match a with
    | ⟨0, _⟩ => show q.val = 0 + q.val; omega
    | ⟨1, _⟩ => rfl
    | ⟨2, _⟩ => rfl
  refine shapeCast_apply _ _ _ _ ?_
  rw [Shape.rowMajor_val_two, Shape.rowMajor_val_three]
  show 8 * q.val * 128 + 0 = (q.val * 8 + 0) * 128 + 0
  omega

/-- The tail at its one index: the rectified sum, from zero, of the two kept entries. -/
theorem tail_apply (A : S16x128.Idx → EReal) (i : S_.Idx) :
    tail A i = max (∑ q : Fin 2, A (ix2 (⟨8 * q.val, by omega⟩ : Fin 16) (⟨0, by norm_num⟩ : Fin 128))) 0 := by
  unfold tail
  rw [maximumf_apply, constant_apply, Ideal.ofBits_zero_f32]
  refine congrArg (max · 0) ?_
  simp only [Host.reduceAdd, Ideal.hostReduceAdd_def]
  refine (Ideal.hostReduceAdd_total reducesTo_S2_S_d0 (fun b => b.elim0) (partials A) _ i).trans ?_
  rw [constant_apply, Ideal.ofBits_zero_f32, zero_add, sum_idx1]
  exact Finset.sum_congr rfl fun q _ => partials_apply A q

variable (m : (ℓ : Loc nD τ sig) → Buf (Elt Ideal) ℓ) (ρ : Dev nD → PrngReg)

/-- Row 8q of the output array holds the sum of the addends of core q's four points. -/
theorem coreTotals_row (c : Dev nD) (q : Fin 2) :
    coreTotals m c (ix2 (⟨8 * q.val, by omega⟩ : Fin 16) (⟨0, by norm_num⟩ : Fin 128))
      = ∑ r : Fin 4, addend m c (4 * q.val + r.val) := by
  unfold coreTotals
  show ∑ s ∈ Finset.range 4, addend m c (4 * (8 * q.val / 8) + s) = _
  rw [Nat.mul_div_cancel_left _ (by norm_num : 0 < 8), Finset.sum_range]

/-- The two cores' totals together are the addends of all eight points. -/
theorem sum_cores (c : Dev nD) :
    ∑ q : Fin 2, ∑ r : Fin 4, addend m c (4 * q.val + r.val) = ∑ t : Fin 8, addend m c t.val :=
  (sum_blockRow (m := 2) (n := 4) (fun a => addend m c a.val)).symm

/-- The tail of the output array the region leaves is the rectified total of the argument. -/
theorem tail_totals (c : Dev nD) : tail (coreTotals m c) = Cert.Spec.rectifiedTotal (arg m c) := by
  funext i
  rw [tail_apply]
  simp only [coreTotals_row]
  rw [sum_cores, sum_addends]
  rfl

/-- The result buffer after the host tail is the tail of the output array the region leaves. -/
theorem tail_result (c : Dev nD) :
    Pipeline.afterTail₀ cfgs (dats m) 0 (V0 m) [hostOps1, hostOps1_1] c main_v6
      = tail (Pipeline.withArrays spec0 c (V0 m c) (fun w => (dats m 0 c).arrAt w cfg0.N) (Proc.devRef .tc main_v1)) := by
  unfold Pipeline.afterTail₀
  simp only [hostOps1, hostOps1_1, List.flatten_cons, List.flatten_nil, List.append_nil, List.cons_append,
    List.nil_append]
  after_results
  rfl

/-- So the program's result is the rectified total of its argument. -/
theorem result_eq (c : Dev nD) :
    Pipeline.afterTail₀ cfgs (dats m) 0 (V0 m) [hostOps1, hostOps1_1] c main_v6
      = Cert.Spec.rectifiedTotal (m ((c : Thread nD τ).loc main_arg0)) := by
  rw [tail_result]
  refine (congrArg tail ((Pipeline.withArrays_arr spec0 launch0.win.arr_inj c (V0 m c)
    (fun w => (dats m 0 c).arrAt w cfg0.N) 1).trans (final m c))).trans ?_
  exact tail_totals m c

/-- The frame run, read: the result at the rectified total of the argument, the argument unchanged. -/
theorem run : θ_run defs (onTc (τ := τ) (main (F := Ideal))) ⟨m, fun _ => 0, ρ⟩ fun r => ∀ c : Dev nD,
      r.2.mem ((c : Thread nD τ).loc main_v6) = Cert.Spec.rectifiedTotal (m ((c : Thread nD τ).loc main_arg0))
      ∧ r.2.mem ((c : Thread nD τ).loc main_arg0) = m ((c : Thread nD τ).loc main_arg0) :=
  (θ_run defs _ _).mono (fun r h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  The reference's result at the ideal instance is the rectified total of its argument: its last stage is the larger
  of zero and the host's sum, from zero, of the stage that rectifies every entry.
-/
import proofs.«141449_j67001489818157_2_alg».proof.Proof.Gen.ReferenceIdeal.Read
import proofs.«141449_j67001489818157_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- The rectifying stage at an entry: the larger of the entry and zero. -/
theorem rectified_apply (x : (⟨S33554432, .f32⟩ : BufTy).Contents (Elt Ideal)) (i : S33554432.Idx) :
    val_main_v0 (F := Ideal) x i = max (x i) 0 := by
  rw [val_main_v0_apply, val_main_call0_v0_apply, val_main_call0_cst_apply]
  show max (x i) (Ideal.ofBits .f32 0x00000000#32) = _
  rw [Ideal.ofBits_zero_f32]

/-- The reference's last stage is the rectified total. -/
theorem result_eq (x : (⟨S33554432, .f32⟩ : BufTy).Contents (Elt Ideal)) :
    val_main_v2 (F := Ideal) x = Cert.Spec.rectifiedTotal x := by
  funext i
  rw [val_main_v2_apply, val_main_v1_apply, val_main_cst_apply, val_main_call1_cst_apply]
  show max (Ideal.ofBits .f32 0x00000000#32 + ∑ j : S33554432.Idx, val_main_v0 (F := Ideal) x j)
      (Ideal.ofBits .f32 0x00000000#32) = _
  rw [Ideal.ofBits_zero_f32, zero_add]
  simp only [rectified_apply]
  rfl

end Cert.ReferenceIdeal.RefValue

end
-- ==== Proof.lean ====
/-
  The kernel sums the rectified entries of a vector of 2^25 floats in eight blocks of 32768 × 128 — two runs of four
  grid points, one run per core, each accumulating its blocks' sums into a scratch tile that it copies to its own
  output tile —, then adds the two cores' totals on the host and rectifies the sum; the reference rectifies every
  entry, sums them all and rectifies the sum. On the extended reals addition is commutative and associative, so the
  grouping of the sum into blocks and runs does not matter and both results are max (∑ᵢ max (xᵢ) 0) 0: the claim
  needs no finiteness of the input.

  The frames of the two kernel programs are the generated ones, the reference's frame is its generated run with the
  result dropped, the idealization rewrote nothing, and the algebraic claim pairs the kernel program's run read at
  its result (`KernelValue.run`) with the reference's run, whose last stage is the same function of the argument
  (`RefValue.result_eq`).
-/
import proofs.«141449_j67001489818157_2_alg».proof.Defs
import proofs.«141449_j67001489818157_2_alg».proof.Proof.Gen.Kernel
import proofs.«141449_j67001489818157_2_alg».proof.Proof.Gen.Kernel.Frame
import proofs.«141449_j67001489818157_2_alg».proof.Proof.Gen.KernelIdeal
import proofs.«141449_j67001489818157_2_alg».proof.Proof.Gen.KernelIdeal.Frame
import proofs.«141449_j67001489818157_2_alg».proof.Proof.Gen.ReferenceIdeal
import proofs.«141449_j67001489818157_2_alg».proof.Proof.Gen.ReferenceIdeal.Run
import proofs.«141449_j67001489818157_2_alg».proof.Proof.Gen.ReferenceIdeal.Read
import proofs.«141449_j67001489818157_2_alg».proof.Proof.Gen.Pre_finite_inputs
import proofs.«141449_j67001489818157_2_alg».proof.Proof.KernelValue
import proofs.«141449_j67001489818157_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the rectified total of the argument they agree on. -/
theorem algebraic : Cert.algebraic_KernelIdeal_ReferenceIdeal := by
  intro m ρ m' ρ' _ hagree
  refine ⟨fun c => Cert.Spec.rectifiedTotal (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
